-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x56x56 : Shape := ⟨4, ![64, 256, 56, 56]⟩
abbrev S16x256 : Shape := ⟨2, ![16, 256]⟩
abbrev S16 : Shape := ⟨1, ![16]⟩
abbrev S256x16 : Shape := ⟨2, ![256, 16]⟩
abbrev S256 : Shape := ⟨1, ![256]⟩
abbrev S_ : Shape := ⟨0, ![]⟩

class Facts : Prop where
  bcast_S_S64x256x56x56 : S_.BroadcastsInDim S64x256x56x56 (![] : Fin 0 → Fin S64x256x56x56.rank)
  reducesTo_S64x256x56x56_S_d0_1_2_3 : S64x256x56x56.ReducesTo [0, 1, 2, 3] S_
  h_S_ : 0 < S_.numel
  bcast_S_S16x256 : S_.BroadcastsInDim S16x256 (![] : Fin 0 → Fin S16x256.rank)
  reducesTo_S16x256_S_d0_1 : S16x256.ReducesTo [0, 1] S_
  bcast_S_S16 : S_.BroadcastsInDim S16 (![] : Fin 0 → Fin S16.rank)
  reducesTo_S16_S_d0 : S16.ReducesTo [0] S_
  bcast_S_S256x16 : S_.BroadcastsInDim S256x16 (![] : Fin 0 → Fin S256x16.rank)
  reducesTo_S256x16_S_d0_1 : S256x16.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x16 1) : IVec S_ 1 :=
  let main_c_5 : IVec S_ 1 := constantI S_ 1 1#1
  let main_v17 : IVec S_ 1 := (fun x v => Host.reduce IntOp.andi x v reducesTo_S256x16_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S64x256x56x56 .f32) (main_arg1 : FVec F S16x256 .f32) (main_arg2 : FVec F S16 .f32) (main_arg3 : FVec F S256x16 .f32) (main_arg4 : FVec F S256 .f32) : IVec S_ 1 :=
  let main_v0 : FVec F S64x256x56x56 .f32 := Host.absf main_arg0
  let main_cst : FVec F S_ .f32 := constant S_ .f32 0x7F800000#32
  let main_v1 : FVec F S64x256x56x56 .f32 := broadcastInDim S64x256x56x56 ![] bcast_S_S64x256x56x56 main_cst
  let main_v2 : IVec S64x256x56x56 1 := cmpf .olt main_v0 main_v1
  let main_c : IVec S_ 1 := constantI S_ 1 1#1
  let main_v3 : IVec S_ 1 := (fun x v => Host.reduce IntOp.andi x v reducesTo_S64x256x56x56_S_d0_1_2_3 h_S_) main_v2 main_c
  let main_v4 : FVec F S16x256 .f32 := Host.absf main_arg1
  let main_cst_0 : FVec F S_ .f32 := constant S_ .f32 0x7F800000#32
  let main_v5 : FVec F S16x256 .f32 := broadcastInDim S16x256 ![] bcast_S_S16x256 main_cst_0
  let main_v6 : IVec S16x256 1 := cmpf .olt main_v4 main_v5
  let main_c_1 : IVec S_ 1 := constantI S_ 1 1#1
  let main_v7 : IVec S_ 1 := (fun x v => Host.reduce IntOp.andi x v reducesTo_S16x256_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S256x16 .f32 := Host.absf main_arg3
  let main_cst_4 : FVec F S_ .f32 := constant S_ .f32 0x7F800000#32
  let main_v15 : FVec F S256x16 .f32 := broadcastInDim S256x16 ![] bcast_S_S256x16 main_cst_4
  let main_v16 : IVec S256x16 1 := cmpf .olt main_v14 main_v15
  fn_part1 (F := F) main_arg4 main_v13 main_v16
-- ==== Kernel.lean ====
abbrev S64x256x56x56 : Shape := ⟨4, ![64, 256, 56, 56]⟩
abbrev S16x256 : Shape := ⟨2, ![16, 256]⟩
abbrev S16 : Shape := ⟨1, ![16]⟩
abbrev S256x16 : Shape := ⟨2, ![256, 16]⟩
abbrev S256 : Shape := ⟨1, ![256]⟩
abbrev S64x256x3136 : Shape := ⟨3, ![64, 256, 3136]⟩
abbrev S1x16 : Shape := ⟨2, ![1, 16]⟩
abbrev S1x256 : Shape := ⟨2, ![1, 256]⟩
abbrev S4x256x3136 : Shape := ⟨3, ![4, 256, 3136]⟩
abbrev S4x256 : Shape := ⟨2, ![4, 256]⟩
abbrev S4x16 : Shape := ⟨2, ![4, 16]⟩
abbrev S4x256x1 : Shape := ⟨3, ![4, 256, 1]⟩

abbrev nBuf : Space → Nat
  | .hbm => 12
  | .vmem => 8
  | .smem => 0
  | _ => 0

abbrev bufTy : (tb : Table) → Fin (tcTables nBuf tb) → BufTy
  | .hbm, ⟨0, _⟩ => ⟨S64x256x56x56, .f32⟩
  | .hbm, ⟨1, _⟩ => ⟨S16x256, .f32⟩
  | .hbm, ⟨2, _⟩ => ⟨S16, .f32⟩
  | .hbm, ⟨3, _⟩ => ⟨S256x16, .f32⟩
  | .hbm, ⟨4, _⟩ => ⟨S256, .f32⟩
  | .hbm, ⟨5, _⟩ => ⟨S64x256x3136, .f32⟩
  | .hbm, ⟨6, _⟩ => ⟨S256x16, .f32⟩
  | .hbm, ⟨7, _⟩ => ⟨S16x256, .f32⟩
  | .hbm, ⟨8, _⟩ => ⟨S1x16, .f32⟩
  | .hbm, ⟨9, _⟩ => ⟨S1x256, .f32⟩
  | .hbm, ⟨10, _⟩ => ⟨S64x256x3136, .f32⟩
  | .hbm, ⟨11, _⟩ => ⟨S64x256x56x56, .f32⟩
  | .local _ .vmem, ⟨0, _⟩ => ⟨S4x256x3136, .f32⟩
  | .local _ .vmem, ⟨1, _⟩ => ⟨S4x256x3136, .f32⟩
  | .local _ .vmem, ⟨2, _⟩ => ⟨S256x16, .f32⟩
  | .local _ .vmem, ⟨3, _⟩ => ⟨S1x16, .f32⟩
  | .local _ .vmem, ⟨4, _⟩ => ⟨S16x256, .f32⟩
  | .local _ .vmem, ⟨5, _⟩ => ⟨S1x256, .f32⟩
  | .local _ .vmem, ⟨6, _⟩ => ⟨S4x256x3136, .f32⟩
  | .local _ .vmem, ⟨7, _⟩ => ⟨S4x256x3136, .f32⟩
  | _, _ => ⟨S64x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x256x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x256x3136 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S64x256x56x56_S64x256x3136 : S64x256x56x56.ShapeCasts S64x256x3136
  transposes_S16x256_S256x16_1_0 : S16x256.Transposes [1, 0] S256x16
  transposes_S256x16_S16x256_1_0 : S256x16.Transposes [1, 0] S16x256
  shapeCasts_S16_S1x16 : S16.ShapeCasts S1x16
  shapeCasts_S256_S1x256 : S256.ShapeCasts S1x256
  inb_S4x256x3136_S4x256x3136_0_0_0 : ∀ a, (![0, 0, 0] : Fin 3 → Nat) a + S4x256x3136.size a ≤ S4x256x3136.size a
  h_S4x256x3136 : 0 < S4x256x3136.numel
  shapeCasts_S4x256x3136_S4x256x3136 : S4x256x3136.ShapeCasts S4x256x3136
  reduces_S4x256x3136_S4x256 : S4x256x3136.Reduces [2] S4x256
  inb_S256x16_S256x16_0_0 : ∀ a, (![0, 0] : Fin 2 → Nat) a + S256x16.size a ≤ S256x16.size a
  h_S256x16 : 0 < S256x16.numel
  shapeCasts_S256x16_S256x16 : S256x16.ShapeCasts S256x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x16_S4x16 : S1x16.Broadcasts S4x16
  broadcasts_S1x256_S4x256 : S1x256.Broadcasts S4x256
  shapeCasts_S4x256_S4x256x1 : S4x256.ShapeCasts S4x256x1
  broadcasts_S4x256x1_S4x256x3136 : S4x256x1.Broadcasts S4x256x3136
  shapeCasts_S64x256x3136_S64x256x56x56 : S64x256x3136.ShapeCasts S64x256x56x56
  dot_S4x256_S256x16_S4x16_1_0_0_1_n_n_wf : DotDims.WF S4x256 S256x16 S4x16 [1] [0] [0] [1] [] []
  dot_S4x16_S16x256_S4x256_1_0_0_1_n_n_wf : DotDims.WF S4x16 S16x256 S4x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x256x3136.size a ≤ S64x256x3136.size a
  hwx0_0 : ∀ i : grid0.Coords, EltTy.bits .f32 = 32 ∨ (Rect.block (s := S64x256x3136) S4x256x3136.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S256x16.size a
  hwx0_1 : ∀ i : grid0.Coords, EltTy.bits .f32 = 32 ∨ (Rect.block (s := S256x16) S256x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x256.size a ≤ S16x256.size a
  hwx0_3 : ∀ i : grid0.Coords, EltTy.bits .f32 = 32 ∨ (Rect.block (s := S16x256) S16x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x256x3136.size a ≤ S64x256x3136.size a
  hwx0_5 : ∀ i : grid0.Coords, EltTy.bits .f32 = 32 ∨ (Rect.block (s := S64x256x3136) S4x256x3136.size (cc0_transform_5 i) (hinb0_5 i)).WholeWords (EltTy.packing .f32)

variable [Facts₀]

def dot_S4x256_S256x16_S4x16_1_0_0_1_n_n : DotDims S4x256 S256x16 S4x16 where
  lhsContracting := [1]
  rhsContracting := [0]
  lhsNonContracting := [0]
  rhsNonContracting := [1]
  lhsBatch := []
  rhsBatch := []
  wf := dot_S4x256_S256x16_S4x16_1_0_0_1_n_n_wf
def dot_S4x16_S16x256_S4x256_1_0_0_1_n_n : DotDims S4x16 S16x256 S4x256 where
  lhsContracting := [1]
  rhsContracting := [0]
  lhsNonContracting := [0]
  rhsNonContracting := [1]
  lhsBatch := []
  rhsBatch := []
  wf := dot_S4x16_S16x256_S4x256_1_0_0_1_n_n_wf

abbrev win0_0 : Pipeline.Window sig grid0 :=
  Pipeline.Window.ofSpec (Memref.whole main_v0) S4x256x3136.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S16x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S4x256x3136.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x256x56x56 : Shape := ⟨4, ![64, 256, 56, 56]⟩
abbrev S16x256 : Shape := ⟨2, ![16, 256]⟩
abbrev S16 : Shape := ⟨1, ![16]⟩
abbrev S256x16 : Shape := ⟨2, ![256, 16]⟩
abbrev S256 : Shape := ⟨1, ![256]⟩
abbrev S_ : Shape := ⟨0, ![]⟩
abbrev S64x256 : Shape := ⟨2, ![64, 256]⟩
abbrev S64x16 : Shape := ⟨2, ![64, 16]⟩
abbrev S1x16 : Shape := ⟨2, ![1, 16]⟩
abbrev S1x256 : Shape := ⟨2, ![1, 256]⟩
abbrev S64x256x1x1 : Shape := ⟨4, ![64, 256, 1, 1]⟩

abbrev nBuf : Space → Nat
  | .hbm => 34
  | .vmem => 0
  | .smem => 0
  | _ => 0

abbrev bufTy : (tb : Table) → Fin (tcTables nBuf tb) → BufTy
  | .hbm, ⟨0, _⟩ => ⟨S64x256x56x56, .f32⟩
  | .hbm, ⟨1, _⟩ => ⟨S16x256, .f32⟩
  | .hbm, ⟨2, _⟩ => ⟨S16, .f32⟩
  | .hbm, ⟨3, _⟩ => ⟨S256x16, .f32⟩
  | .hbm, ⟨4, _⟩ => ⟨S256, .f32⟩
  | .hbm, ⟨5, _⟩ => ⟨S_, .f32⟩
  | .hbm, ⟨6, _⟩ => ⟨S64x256, .f32⟩
  | .hbm, ⟨7, _⟩ => ⟨S_, .f32⟩
  | .hbm, ⟨8, _⟩ => ⟨S64x256, .f32⟩
  | .hbm, ⟨9, _⟩ => ⟨S64x256, .f32⟩
  | .hbm, ⟨10, _⟩ => ⟨S256x16, .f32⟩
  | .hbm, ⟨11, _⟩ => ⟨S64x16, .f32⟩
  | .hbm, ⟨12, _⟩ => ⟨S1x16, .f32⟩
  | .hbm, ⟨13, _⟩ => ⟨S64x16, .f32⟩
  | .hbm, ⟨14, _⟩ => ⟨S64x16, .f32⟩
  | .hbm, ⟨15, _⟩ => ⟨S_, .f32⟩
  | .hbm, ⟨16, _⟩ => ⟨S64x16, .f32⟩
  | .hbm, ⟨17, _⟩ => ⟨S64x16, .f32⟩
  | .hbm, ⟨18, _⟩ => ⟨S16x256, .f32⟩
  | .hbm, ⟨19, _⟩ => ⟨S64x256, .f32⟩
  | .hbm, ⟨20, _⟩ => ⟨S1x256, .f32⟩
  | .hbm, ⟨21, _⟩ => ⟨S64x256, .f32⟩
  | .hbm, ⟨22, _⟩ => ⟨S64x256, .f32⟩
  | .hbm, ⟨23, _⟩ => ⟨S64x256, .f32⟩
  | .hbm, ⟨24, _⟩ => ⟨S64x256, .f32⟩
  | .hbm, ⟨25, _⟩ => ⟨S_, .f32⟩
  | .hbm, ⟨26, _⟩ => ⟨S64x256, .f32⟩
  | .hbm, ⟨27, _⟩ => ⟨S64x256, .f32⟩
  | .hbm, ⟨28, _⟩ => ⟨S_, .f32⟩
  | .hbm, ⟨29, _⟩ => ⟨S64x256, .f32⟩
  | .hbm, ⟨30, _⟩ => ⟨S64x256, .f32⟩
  | .hbm, ⟨31, _⟩ => ⟨S64x256x1x1, .f32⟩
  | .hbm, ⟨32, _⟩ => ⟨S64x256x56x56, .f32⟩
  | .hbm, ⟨33, _⟩ => ⟨S64x256x56x56, .f32⟩
  | _, _ => ⟨S64x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_cst : Ref sig .tc := ⟨.hbm, 15, rfl⟩
abbrev main_call0_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]

class Facts₀ : Prop where
  reducesTo_S64x256x56x56_S64x256_d2_3 : S64x256x56x56.ReducesTo [2, 3] S64x256
  h_S_ : 0 < S_.numel
  bcast_S_S64x256 : S_.BroadcastsInDim S64x256 (![] : Fin 0 → Fin S64x256.rank)
  transposes_S16x256_S256x16_1_0 : S16x256.Transposes [1, 0] S256x16
  bcast_S16_S1x16_1 : S16.BroadcastsInDim S1x16 (![1] : Fin 1 → Fin S1x16.rank)
  bcast_S1x16_S64x16_0_1 : S1x16.BroadcastsInDim S64x16 (![0, 1] : Fin 2 → Fin S64x16.rank)
  bcast_S_S64x16 : S_.BroadcastsInDim S64x16 (![] : Fin 0 → Fin S64x16.rank)
  transposes_S256x16_S16x256_1_0 : S256x16.Transposes [1, 0] S16x256
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  bcast_S64x256_S64x256x1x1_0_1 : S64x256.BroadcastsInDim S64x256x1x1 (![0, 1] : Fin 2 → Fin S64x256x1x1.rank)
  bcast_S64x256x1x1_S64x256x56x56_0_1_2_3 : S64x256x1x1.BroadcastsInDim S64x256x56x56 (![0, 1, 2, 3] : Fin 4 → Fin S64x256x56x56.rank)
  dot_S64x256_S256x16_S64x16_1_0_0_1_n_n_wf : DotDims.WF S64x256 S256x16 S64x16 [1] [0] [0] [1] [] []
  dot_S64x16_S16x256_S64x256_1_0_0_1_n_n_wf : DotDims.WF S64x16 S16x256 S64x256 [1] [0] [0] [1] [] []

variable [Facts₀]

def dot_S64x256_S256x16_S64x16_1_0_0_1_n_n : DotDims S64x256 S256x16 S64x16 where
  lhsContracting := [1]
  rhsContracting := [0]
  lhsNonContracting := [0]
  rhsNonContracting := [1]
  lhsBatch := []
  rhsBatch := []
  wf := dot_S64x256_S256x16_S64x16_1_0_0_1_n_n_wf
def dot_S64x16_S16x256_S64x256_1_0_0_1_n_n : DotDims S64x16 S16x256 S64x256 where
  lhsContracting := [1]
  rhsContracting := [0]
  lhsNonContracting := [0]
  rhsNonContracting := [1]
  lhsBatch := []
  rhsBatch := []
  wf := dot_S64x16_S16x256_S64x256_1_0_0_1_n_n_wf

class Facts : Prop extends Facts₀ where

variable [Facts]
-- ==== Proof.LibPlaneSum.lean ====
/-
  A rank-4 array [A, B, H, W] summed over its last two axes, and the logistic function spelt with words.

  * The indices of [A, B, H, W] whose first two coordinates are (a, b) are the H · W positions of one plane; numbered
    k = W · h + w they are h = k / W, w = k % W. A sum over that set of indices — what a reduction over the axes
    [2, 3] computes at (a, b), in any commutative additive monoid — is the sum over k : Fin (H · W) of the array at
    position k of the plane. The same numbering is the row-major re-laying [A, B, H, W] → [A, B, H · W].
  * The f32 word of 1.0 is the extended real 1, and 1 / (1 + exp (-x)) spelt with that word is the logistic function.
-/
import Idealize.ShloMosaic.PureOps.Ideal
import Idealize.ShloMosaic.PureOps.Ideal.Laws
import Idealize.ShloMosaic.Lib.ValueIdx

noncomputable section

namespace Cert.LibPlaneSum

open Idealize.ShloMosaic Idealize.ShloMosaic.ValueIdx

/-- Position k of the plane of (a, b): row k / W, column k % W. -/
def planeIdx {A B H W : ℕ} (a : Fin A) (b : Fin B) (k : Fin (H * W)) : (⟨4, ![A, B, H, W]⟩ : Shape).Idx :=
  have hW : 0 < W := Nat.pos_of_ne_zero fun h => by
    have hpos : 0 < H * W := Nat.lt_of_le_of_lt (Nat.zero_le _) k.isLt
    rw [h, Nat.mul_zero] at hpos; exact Nat.lt_irrefl _ hpos
  ix4 a b (⟨k.val / W, (Nat.div_lt_iff_lt_mul hW).mpr k.isLt⟩ : Fin H) (⟨k.val % W, Nat.mod_lt _ hW⟩ : Fin W)

theorem planeIdx_val0 {A B H W : ℕ} (a : Fin A) (b : Fin B) (k : Fin (H * W)) : (planeIdx a b k 0).val = a.val := rfl
theorem planeIdx_val1 {A B H W : ℕ} (a : Fin A) (b : Fin B) (k : Fin (H * W)) : (planeIdx a b k 1).val = b.val := rfl
theorem planeIdx_val2 {A B H W : ℕ} (a : Fin A) (b : Fin B) (k : Fin (H * W)) : (planeIdx a b k 2).val = k.val / W := rfl
theorem planeIdx_val3 {A B H W : ℕ} (a : Fin A) (b : Fin B) (k : Fin (H * W)) : (planeIdx a b k 3).val = k.val % W := rfl

/-- Position W · h + w of the plane is (h, w). -/
theorem pos_lt {H W : ℕ} (h : Fin H) (w : Fin W) : h.val * W + w.val < H * W := by
  have hh : h.val + 1 ≤ H := h.isLt
  calc h.val * W + w.val < h.val * W + W := Nat.add_lt_add_left w.isLt _
    _ = (h.val + 1) * W := (Nat.succ_mul _ _).symm
    _ ≤ H * W := Nat.mul_le_mul_right _ hh

theorem planeIdx_pos {A B H W : ℕ} (a : Fin A) (b : Fin B) (h : Fin H) (w : Fin W) :
    planeIdx a b (⟨h.val * W + w.val, pos_lt h w⟩ : Fin (H * W)) = ix4 a b h w := by
  have hW : 0 < W := Nat.lt_of_le_of_lt (Nat.zero_le _) w.isLt
  refine funext fun d => Fin.ext ?_
  match d with
  | ⟨0, _⟩ => rfl
  | ⟨1, _⟩ => rfl
  | ⟨2, _⟩ =>
    show (h.val * W + w.val) / W = h.val
    rw [Nat.mul_comm, Nat.mul_add_div hW, Nat.div_eq_of_lt w.isLt, Nat.add_zero]
  | ⟨3, _⟩ =>
    show (h.val * W + w.val) % W = w.val
    rw [Nat.mul_comm, Nat.mul_add_mod, Nat.mod_eq_of_lt w.isLt]

/-- A sum over the indices that a map keeping the first two coordinates sends to j is the sum over the plane of
    (j 0, j 1). `drop` is a reduction's index map over the axes [2, 3]. -/
theorem sum_plane {M : Type*} [AddCommMonoid M] {A B H W : ℕ} (X : (⟨4, ![A, B, H, W]⟩ : Shape).Idx → M)
    (drop : (⟨4, ![A, B, H, W]⟩ : Shape).Idx → (⟨2, ![A, B]⟩ : Shape).Idx)
    (h0 : ∀ i, (drop i 0).val = (i 0).val) (h1 : ∀ i, (drop i 1).val = (i 1).val)
    (j : (⟨2, ![A, B]⟩ : Shape).Idx) :
    ∑ i ∈ Finset.univ.filter (fun i => drop i = j), X i = ∑ k : Fin (H * W), X (planeIdx (j 0) (j 1) k) := by
  symm
  refine Finset.sum_bij (fun k _ => planeIdx (j 0) (j 1) k) (fun k _ => ?_) (fun k _ k' _ hk => ?_) (fun i hi => ?_)
    (fun _ _ => rfl)
  · refine Finset.mem_filter.mpr ⟨Finset.mem_univ _, funext fun d => Fin.ext ?_⟩
    match d with
    | ⟨0, _⟩ => exact h0 _
    | ⟨1, _⟩ => exact h1 _
  · have e2 : k.val / W = k'.val / W := congrArg (fun i => (i 2).val) hk
    have e3 : k.val % W = k'.val % W := congrArg (fun i => (i 3).val) hk
    refine Fin.ext ?_
    rw [← Nat.div_add_mod k.val W, ← Nat.div_add_mod k'.val W, e2, e3]
  · have hj : drop i = j := (Finset.mem_filter.mp hi).2
    have e0 : (j 0).val = (i 0).val := by rw [← hj]; exact h0 i
    have e1 : (j 1).val = (i 1).val := by rw [← hj]; exact h1 i
    have hi2 : i 2 = (⟨(i 2).val, (i 2).isLt⟩ : Fin H) := rfl
    refine ⟨(⟨(i 2).val * W + (i 3).val, pos_lt (⟨(i 2).val, (i 2).isLt⟩ : Fin H) (⟨(i 3).val, (i 3).isLt⟩ : Fin W)⟩ : Fin (H * W)),
      Finset.mem_univ _, ?_⟩
    refine (planeIdx_pos (j 0) (j 1) (⟨(i 2).val, (i 2).isLt⟩ : Fin H) (⟨(i 3).val, (i 3).isLt⟩ : Fin W)).trans
      (funext fun d => Fin.ext ?_)
    match d with
    | ⟨0, _⟩ => exact e0
    | ⟨1, _⟩ => exact e1
    | ⟨2, _⟩ => rfl
    | ⟨3, _⟩ => rfl

/-- The word of 1.0 is the extended real 1. -/
theorem ofBits_one_f32 : Ideal.ofBits .f32 0x3F800000#32 = 1 := by
  simp [Ideal.ofBits, Ideal.ieee, -EReal.coe_mul]; norm_num

/-- The logistic function spelt with the word of 1.0 for both ones, 1 / (1 + exp (-x)), is the logistic function. -/
theorem logistic_spelt (x : EReal) :
    Ideal.div (Ideal.ofBits .f32 0x3F800000#32) (Ideal.ofBits .f32 0x3F800000#32 + Ideal.exp (-x)) = Ideal.logistic x := by
  rw [ofBits_one_f32]; rfl

end Cert.LibPlaneSum

end
-- ==== Proof.SqueezeExcite.lean ====
/-
  A squeeze-and-excitation gate over a [64, 256, 56, 56] array of extended reals, index by index.

  For an array X, weights W1 : [16, 256], W2 : [256, 16] and biases B1 : [16], B2 : [256]:
    * the pooled value of image b, channel c is the sum of X (b, c, ·, ·) over its 56 · 56 positions divided by 3136;
    * the hidden vector of an image is max (pooled · W1ᵀ + B1, 0), of length 16;
    * the gate of channel c is logistic (hidden · W2ᵀ + B2) at c;
    * the result at (b, c, h, w) is X (b, c, h, w) times the gate of image b at channel c.
  The 3136 positions of a channel are numbered k = 56 · h + w, so that the same sum reads a [64, 256, 3136] re-laying of
  X along its last axis. Every sum is a finite sum in the commutative monoid of the extended reals: no order, grouping
  or tiling of it matters, and nothing here needs the entries to be finite.
-/
import Idealize.ShloMosaic.PureOps.Ideal
import Idealize.ShloMosaic.PureOps.Ideal.Laws
import Idealize.ShloMosaic.Lib.ValueIdx
import proofs.«156877_j37125697306889_2_alg».proof.Proof.LibPlaneSum

noncomputable section

namespace Cert.SqueezeExcite

open Idealize.ShloMosaic Idealize.ShloMosaic.ValueIdx

/-- Position k of a channel's 56 × 56 plane, row k / 56 and column k % 56. -/
def planeIdx (b : Fin 64) (c : Fin 256) (k : Fin 3136) : (⟨4, ![64, 256, 56, 56]⟩ : Shape).Idx :=
  Cert.LibPlaneSum.planeIdx (A := 64) (B := 256) (H := 56) (W := 56) b c k

/-- The gate of one image from its pooled vector P : the two small dense layers, the rectifier between them, and
    the logistic function. The rectifier's threshold is the value of the zero word. -/
def gateRow (P : Fin 256 → EReal) (W1 : (⟨2, ![16, 256]⟩ : Shape).Idx → EReal) (B1 : (⟨1, ![16]⟩ : Shape).Idx → EReal)
    (W2 : (⟨2, ![256, 16]⟩ : Shape).Idx → EReal) (B2 : (⟨1, ![256]⟩ : Shape).Idx → EReal) (c : Fin 256) : EReal :=
  Ideal.logistic ((∑ j : Fin 16,
      max ((∑ c' : Fin 256, P c' * W1 (ix2 j c')) + B1 (ix1 j)) (Ideal.ofBits .f32 0x00000000#32) * W2 (ix2 c j))
    + B2 (ix1 c))

/-- The pooled value of image b at channel c: the plane's sum over 3136. -/
def pooled (X : (⟨4, ![64, 256, 56, 56]⟩ : Shape).Idx → EReal) (b : Fin 64) (c : Fin 256) : EReal :=
  Ideal.div (∑ k : Fin 3136, X (planeIdx b c k)) (Ideal.ofBits .f32 0x45440000#32)

/-- The rescaled array. -/
def result (X : (⟨4, ![64, 256, 56, 56]⟩ : Shape).Idx → EReal) (W1 : (⟨2, ![16, 256]⟩ : Shape).Idx → EReal)
    (B1 : (⟨1, ![16]⟩ : Shape).Idx → EReal) (W2 : (⟨2, ![256, 16]⟩ : Shape).Idx → EReal)
    (B2 : (⟨1, ![256]⟩ : Shape).Idx → EReal) : (⟨4, ![64, 256, 56, 56]⟩ : Shape).Idx → EReal :=
  fun i => X i * gateRow (fun c' => pooled X (i 0) c') W1 B1 W2 B2 (i 1)

/-- The logistic function spelt with the word of 1.0 for both ones, 1 / (1 + exp (-x)), is the logistic function. -/
theorem logistic_spelt (x : EReal) :
    Ideal.div (Ideal.ofBits .f32 0x3F800000#32) (Ideal.ofBits .f32 0x3F800000#32 + Ideal.exp (-x)) = Ideal.logistic x :=
  Cert.LibPlaneSum.logistic_spelt x

/-- The plane's position of (h, w) is 56 · h + w, and `planeIdx` inverts it. -/
theorem planeIdx_pos (b : Fin 64) (c : Fin 256) (h w : Fin 56) :
    planeIdx b c (⟨h.val * 56 + w.val, by have := h.isLt; have := w.isLt; omega⟩ : Fin 3136) = ix4 b c h w :=
  Cert.LibPlaneSum.planeIdx_pos b c h w

/-- The indices of the array whose first two coordinates are (b, c) are the 3136 plane positions: a sum over them is
    the sum over k. `drop` is any map to [64, 256] that keeps the first two coordinates. -/
theorem sum_plane {M : Type*} [AddCommMonoid M] (X : (⟨4, ![64, 256, 56, 56]⟩ : Shape).Idx → M)
    (drop : (⟨4, ![64, 256, 56, 56]⟩ : Shape).Idx → (⟨2, ![64, 256]⟩ : Shape).Idx)
    (h0 : ∀ i, (drop i 0).val = (i 0).val) (h1 : ∀ i, (drop i 1).val = (i 1).val)
    (j : (⟨2, ![64, 256]⟩ : Shape).Idx) :
    ∑ i ∈ Finset.univ.filter (fun i => drop i = j), X i = ∑ k : Fin 3136, X (planeIdx (j 0) (j 1) k) :=
  Cert.LibPlaneSum.sum_plane X drop h0 h1 j

end Cert.SqueezeExcite

end
-- ==== Proof.RefGate.lean ====
/-
  The reference program's result is the squeeze-and-excitation gate of its arguments.

  Read one operation at a time at an index: the pooled value is the two-axis sum over a channel's plane (the set of
  indices sharing the first two coordinates, summed as the 3136 plane positions) divided by 3136; the two dense layers
  are row-by-column sums against the transposed weights, W1ᵀ (c', j) = W1 (j, c') and W2ᵀ (j, c) = W2 (c, j); the
  logistic function arrives spelt as 1 / (1 + exp (-x)), which is its definition on the extended reals; and the gate
  is broadcast over the plane before the product.
-/
import proofs.«156877_j37125697306889_2_alg».proof.Proof.Gen.ReferenceIdeal.Run
import proofs.«156877_j37125697306889_2_alg».proof.Proof.Gen.ReferenceIdeal.Read
import proofs.«156877_j37125697306889_2_alg».proof.Proof.SqueezeExcite
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx
open Cert.SqueezeExcite

variable (x0 : (⟨4, ![64, 256, 56, 56]⟩ : Shape).Idx → EReal) (x1 : (⟨2, ![16, 256]⟩ : Shape).Idx → EReal)
  (x2 : (⟨1, ![16]⟩ : Shape).Idx → EReal) (x3 : (⟨2, ![256, 16]⟩ : Shape).Idx → EReal)
  (x4 : (⟨1, ![256]⟩ : Shape).Idx → EReal)

/-- The reference's mean over the plane of (b, c). -/
theorem pooled_eq (b : Fin 64) (c : Fin 256) : val_main_v2 (F := Ideal) x0 (ix2 b c) = pooled x0 b c := by
  rw [val_main_v2_apply, val_main_v1_apply, val_main_cst_0_apply]
  unfold pooled
  refine congrArg₂ Ideal.div ?_ rfl
  show Ideal.hostReduceAdd reducesTo_S64x256x56x56_S64x256_d2_3 x0 (Ideal.ofBits .f32 0x00000000#32) (ix2 b c) = _
  unfold Ideal.hostReduceAdd
  rw [Ideal.ofBits_zero_f32, zero_add]
  exact sum_plane x0 reducesTo_S64x256x56x56_S64x256_d2_3.drop
    (fun i => reducesTo_S64x256x56x56_S64x256_d2_3.drop_apply_val_of_eq i 0 0)
    (fun i => reducesTo_S64x256x56x56_S64x256_d2_3.drop_apply_val_of_eq i 1 1) (ix2 b c)

/-- The hidden vector: the first dense layer and the rectifier. -/
theorem hidden_eq (b : Fin 64) (j : Fin 16) :
    val_main_v8 (F := Ideal) x0 x1 x2 (ix2 b j)
      = max ((∑ c' : Fin 256, pooled x0 b c' * x1 (ix2 j c')) + x2 (ix1 j)) (Ideal.ofBits .f32 0x00000000#32) := by
  rw [val_main_v8_apply, val_main_call0_v0_apply, val_main_call0_cst_apply, val_main_v7_apply, val_main_v6_apply,
    val_main_v5_apply, val_main_v4_apply]
  refine congrArg₂ max (congrArg₂ (· + ·) (Finset.sum_congr rfl fun c' _ => ?_) (congrArg x2 ?_)) rfl
  · rw [val_main_v3_apply]
    refine congrArg₂ (· * ·) ((congrArg (val_main_v2 (F := Ideal) x0) ?_).trans (pooled_eq x0 b c')) (congrArg x1 ?_)
    · exact funext fun a => match a with | ⟨0, _⟩ => rfl | ⟨1, _⟩ => rfl
    · exact funext fun a => match a with | ⟨0, _⟩ => rfl | ⟨1, _⟩ => rfl
  · exact funext fun a => match a with | ⟨0, _⟩ => rfl

/-- The gate: the second dense layer and the logistic function. -/
theorem gate_eq (b : Fin 64) (c : Fin 256) :
    val_main_v19 (F := Ideal) x0 x1 x2 x3 x4 (ix2 b c) = gateRow (fun c' => pooled x0 b c') x1 x2 x3 x4 c := by
  rw [val_main_v19_apply, val_main_v18_apply, val_main_cst_2_apply, val_main_v17_apply, val_main_v16_apply,
    val_main_cst_1_apply, val_main_v15_apply, val_main_v14_apply, val_main_v13_apply, val_main_v12_apply,
    val_main_v11_apply, val_main_v10_apply]
  unfold gateRow
  refine (logistic_spelt _).trans ?_
  refine congrArg Ideal.logistic (congrArg₂ (· + ·) (Finset.sum_congr rfl fun j _ => ?_) (congrArg x4 ?_))
  · rw [val_main_v9_apply]
    refine congrArg₂ (· * ·) ((congrArg (val_main_v8 (F := Ideal) x0 x1 x2) ?_).trans (hidden_eq x0 x1 x2 b j)) (congrArg x3 ?_)
    · exact funext fun a => match a with | ⟨0, _⟩ => rfl | ⟨1, _⟩ => rfl
    · exact funext fun a => match a with | ⟨0, _⟩ => rfl | ⟨1, _⟩ => rfl
  · exact funext fun a => match a with | ⟨0, _⟩ => rfl

/-- The reference's result array. -/
theorem result_eq : val_main_v22 (F := Ideal) x0 x1 x2 x3 x4 = result x0 x1 x2 x3 x4 := by
  funext i
  obtain ⟨b, c, h, w, rfl⟩ : ∃ (b : Fin 64) (c : Fin 256) (h w : Fin 56), i = ix4 b c h w := ⟨i 0, i 1, i 2, i 3, eq_ix4 i⟩
  rw [val_main_v22_apply, val_main_v21_apply, val_main_v20_apply]
  unfold result
  refine congrArg₂ (· * ·) rfl ((congrArg (val_main_v19 (F := Ideal) x0 x1 x2 x3 x4) ?_).trans (gate_eq x0 x1 x2 x3 x4 b c))
  exact funext fun a => match a with | ⟨0, _⟩ => rfl | ⟨1, _⟩ => rfl

end Cert.ReferenceIdeal.RefValue

end
-- ==== Proof.LibDense.lean ====
/-
  A dense layer on the extended reals, index by index, and the readings that bring a vector unit's matrix
  product, the host's dot_general and a bias row to it.

  For a left operand `a : [n, K]`, a right operand `w : [K, d]` the product's entry (r, j) is the finite sum
  `∑ k, a (r, k) * w (k, j)`; a sum on the extended reals is a sum in a commutative monoid, so no order, grouping or
  tiling of it matters and no finiteness is needed anywhere in this file.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDense

open Idealize.ShloMosaic Idealize.ShloMosaic.ValueIdx

/-- Entry (r, j) of the product of `a : [n, K]` and `w : [K, d]`. -/
def prod {n K d : ℕ} (a : (⟨2, ![n, K]⟩ : Shape).Idx → EReal) (w : (⟨2, ![K, d]⟩ : Shape).Idx → EReal) :
    (⟨2, ![n, d]⟩ : Shape).Idx → EReal :=
  fun i => ∑ k : Fin K, a (ix2 (i 0) k) * w (ix2 k (i 1))

/-- The affine part of a graph-convolution layer: `(mean · Wl + xt · Wr) + b`, the bias added to every row. -/
def affine {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => (prod mean wl i + prod xt wr i) + b (ix1 (i 1))

/-- The layer with the rectifier: the larger of the affine part and the zero word's value. -/
def relu {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => max (affine mean xt wl wr b i) (Ideal.ofBits .f32 0x00000000#32)

/-- An entry of the affine part reads one row of each row operand, one column of each weight and one bias entry: two
    sets of operands that agree there give the same entry. -/
theorem affine_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    affine a x wl wr b i = affine a' x' wl' wr' b' i' := by
  unfold affine prod
  rw [hb, Finset.sum_congr rfl (fun k _ => congrArg₂ (· * ·) (ha k) (hwl k)),
    Finset.sum_congr rfl (fun k _ => congrArg₂ (· * ·) (hx k) (hwr k))]

/-- The same for the layer with the rectifier. -/
theorem relu_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    relu a x wl wr b i = relu a' x' wl' wr' b' i' := by
  unfold relu
  rw [affine_congr a x a' x' wl wr wl' wr' b b' i i' ha hx hwl hwr hb]

/-! ## The contraction index of a plain `[M, K] × [K, N]` product is `Fin K` -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the product's contraction index, re-indexed by `Fin K`, is the row-by-column sum. -/
theorem plain_sum (M K N : ℕ) (x : (⟨2, ![M, K]⟩ : Shape).Idx → EReal) (w : (⟨2, ![K, N]⟩ : Shape).Idx → EReal)
    (i : (⟨2, ![M, N]⟩ : Shape).Idx) :
    ∑ q : (DotDims.plain M K N).contr.Idx, x ((DotDims.plain M K N).lhsIdx i q) * w ((DotDims.plain M K N).rhsIdx i q)
      = prod x w i := by
  unfold prod
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs0 M K N i _
      | ⟨1, _⟩ => exact ((DotDims.plain M K N).lhsIdx_val_of_single rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single rfl i _).trans hk
      | ⟨1, _⟩ => exact plain_rhs1 M K N i _)
  exact congrArg₂ (· * ·) (congrArg x el) (congrArg w er)

/-- A vector unit's matrix product into the zero accumulator, at an entry. -/
theorem matmul_plain {M K N : ℕ} {φ₁ φ₂ : FTy} (x : FVec Ideal ⟨2, ![M, K]⟩ φ₁) (w : FVec Ideal ⟨2, ![K, N]⟩ φ₂)
    (i : (⟨2, ![M, N]⟩ : Shape).Idx) :
    FloatOps.matmul (DotDims.plain M K N) none x w (constant (F := Ideal) ⟨2, ![M, N]⟩ .f32 0x00000000#32) i = prod x w i := by
  rw [Ideal.matmul_constant_zero_apply]
  exact plain_sum M K N x w i

/-- The host's dot_general of the same dimensions, at an entry. -/
theorem dotGeneral_plain {M K N : ℕ} (sched : HostSchedule) (x : (⟨2, ![M, K]⟩ : Shape).Idx → EReal) (w : (⟨2, ![K, N]⟩ : Shape).Idx → EReal)
    (i : (⟨2, ![M, N]⟩ : Shape).Idx) :
    FloatOps.dotGeneral (F := Ideal) (φ₁ := .f32) (φ₂ := .f32) (DotDims.plain M K N) none sched x w i = prod x w i := by
  rw [Ideal.dotGeneral_apply]
  exact plain_sum M K N x w i

/-! ## A bias row -/

/-- A vector `b : [d]` cast to `[1, d]` and broadcast down `n` rows, at entry (r, j), is `b j`. -/
theorem bias_row {n d : ℕ} (b : (⟨1, ![d]⟩ : Shape).Idx → EReal) (h1 : (⟨1, ![d]⟩ : Shape).ShapeCasts ⟨2, ![1, d]⟩)
    (h2 : (⟨2, ![1, d]⟩ : Shape).Broadcasts ⟨2, ![n, d]⟩) (i : (⟨2, ![n, d]⟩ : Shape).Idx) :
    broadcastTo ⟨2, ![n, d]⟩ (shapeCast ⟨2, ![1, d]⟩ b h1) h2 i = b (ix1 (i 1)) := by
  refine (broadcastTo_apply _ h2 i (ix2 ⟨0, Nat.one_pos⟩ (i 1)) (fun a => ?_)).trans ?_
  · match a with
    | ⟨0, _⟩ => exact (if_pos rfl).symm
    | ⟨1, _⟩ =>
      show (i 1).val = if d = 1 then 0 else (i 1).val
      have hlt : (i 1).val < d := idx2_lt1 i
      split
      · omega
      · rfl
  · refine (shapeCast_addUnit_apply ![d] b h1 _).trans (congrArg b (funext fun a => ?_))
    match a with
    | ⟨0, _⟩ => rfl

end Cert.LibDense

end
-- ==== Proof.BodyGate.lean ====
/-
  What the kernel body stores for one tile of four images, index by index, on the extended reals.

  The body reads a tile x0 : [4, 256, 3136] (four images, their planes laid along the last axis), the two weight
  matrices already transposed, x1 : [256, 16] and x3 : [16, 256], and the biases as rows x2 : [1, 16] and x4 : [1, 256].
  Its stored value at (p, c, k) is x0 (p, c, k) times the gate of image p at channel c, the gate computed from the
  tile's own pooled vector: the sum of x0 (p, c', ·) along the last axis divided by 3136. The two matrix products
  accumulate into zero, so each is the plain row-by-column sum; each bias row is broadcast down the four rows; the
  gate [4, 256] is viewed [4, 256, 1] and broadcast along the last axis.
-/
import proofs.«156877_j37125697306889_2_alg».proof.Proof.Gen.KernelIdeal.Skeleton
import proofs.«156877_j37125697306889_2_alg».proof.Proof.SqueezeExcite
import proofs.«156877_j37125697306889_2_alg».proof.Proof.LibDense
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Facts₀ Idealize.ShloMosaic Idealize.ShloMosaic.ValueIdx
open Cert.SqueezeExcite

/-- The tile's pooled matrix [4, 256]: the lane sum along the last axis, divided by the word of 3136. -/
def tilePool (v : FVec Ideal S4x256x3136 .f32) : FVec Ideal S4x256 .f32 :=
  divf (multiReduction .add [2] S4x256 v 0x00000000#32 reduces_S4x256x3136_S4x256 (.inl rfl) rfl)
    (broadcast S4x256 (Scalar.ofBits (F := Ideal) .f32 0x45440000#32))

/-- The first dense layer and the rectifier, [4, 16]. -/
def tileHidden (P : FVec Ideal S4x256 .f32) (x1 : Vec Ideal S256x16 .f32) (x2 : Vec Ideal S1x16 .f32) : FVec Ideal S4x16 .f32 :=
  maximumf
    (addf (matmul dot_S4x256_S256x16_S4x16_1_0_0_1_n_n none P
        (shapeCast S256x16 x1 shapeCasts_S256x16_S256x16 : FVec Ideal S256x16 .f32)
        (constant (F := Ideal) S4x16 .f32 0x00000000#32))
      (broadcastTo S4x16 (shapeCast S1x16 x2 shapeCasts_S1x16_S1x16 : FVec Ideal S1x16 .f32) broadcasts_S1x16_S4x16))
    (broadcast S4x16 (Scalar.ofBits (F := Ideal) .f32 0x00000000#32))

/-- The second dense layer and the logistic function, [4, 256]. -/
def tileGate (H : FVec Ideal S4x16 .f32) (x3 : Vec Ideal S16x256 .f32) (x4 : Vec Ideal S1x256 .f32) : FVec Ideal S4x256 .f32 :=
  logistic
    (addf (matmul dot_S4x16_S16x256_S4x256_1_0_0_1_n_n none H
        (shapeCast S16x256 x3 shapeCasts_S16x256_S16x256 : FVec Ideal S16x256 .f32)
        (constant (F := Ideal) S4x256 .f32 0x00000000#32))
      (broadcastTo S4x256 (shapeCast S1x256 x4 shapeCasts_S1x256_S1x256 : FVec Ideal S1x256 .f32) broadcasts_S1x256_S4x256))

/-- The stored value is the tile times its gate, broadcast along the planes. -/
theorem pay_eq (x0 : Vec Ideal S4x256x3136 .f32) (x1 : Vec Ideal S256x16 .f32) (x2 : Vec Ideal S1x16 .f32)
    (x3 : Vec Ideal S16x256 .f32) (x4 : Vec Ideal S1x256 .f32) :
    Gen.k0_pay1 (F := Ideal) x0 x1 x2 x3 x4
      = mulf (shapeCast S4x256x3136 x0 shapeCasts_S4x256x3136_S4x256x3136 : FVec Ideal S4x256x3136 .f32)
          (broadcastTo S4x256x3136
            (shapeCast S4x256x1
              (tileGate (tileHidden (tilePool (shapeCast S4x256x3136 x0 shapeCasts_S4x256x3136_S4x256x3136 : FVec Ideal S4x256x3136 .f32)) x1 x2) x3 x4)
              shapeCasts_S4x256_S4x256x1)
            broadcasts_S4x256x1_S4x256x3136) := rfl

/-- The pooled matrix at (p, c'). -/
theorem tilePool_apply (v : FVec Ideal S4x256x3136 .f32) (p : Fin 4) (c' : Fin 256) :
    tilePool v (ix2 p c') = Ideal.div (∑ k' : Fin 3136, v (ix3 p c' k')) (Ideal.ofBits .f32 0x45440000#32) := by
  unfold tilePool
  show Ideal.div (multiReduction .add [2] S4x256 v 0x00000000#32 reduces_S4x256x3136_S4x256 (.inl rfl) rfl (ix2 p c')) _ = _
  refine congrArg₂ Ideal.div ?_ rfl
  refine (Ideal.multiReduction_add_single v 0x00000000#32 reduces_S4x256x3136_S4x256 _ _ (ix2 p c')).trans ?_
  refine Finset.sum_congr rfl fun k' _ => congrArg v (funext fun a => ?_)
  match a with
  | ⟨0, _⟩ => rfl
  | ⟨1, _⟩ => rfl
  | ⟨2, _⟩ => rfl

/-- A [1, n] row broadcast down four rows reads its entry of the same column. -/
theorem row16_apply (x2 : Vec Ideal S1x16 .f32) (p : Fin 4) (j : Fin 16) :
    broadcastTo S4x16 (shapeCast S1x16 x2 shapeCasts_S1x16_S1x16) broadcasts_S1x16_S4x16 (ix2 p j)
      = x2 (ix2 (0 : Fin 1) j) := by
  rw [shapeCast_self]
  exact broadcastTo_apply x2 broadcasts_S1x16_S4x16 (ix2 p j) (ix2 (0 : Fin 1) j) (fun a => match a with
    | ⟨0, _⟩ => by show 0 = if (1 : Nat) = 1 then 0 else p.val; rw [if_pos rfl]
    | ⟨1, _⟩ => by show j.val = if (16 : Nat) = 1 then 0 else j.val; rw [if_neg (by decide)])

theorem row256_apply (x4 : Vec Ideal S1x256 .f32) (p : Fin 4) (c : Fin 256) :
    broadcastTo S4x256 (shapeCast S1x256 x4 shapeCasts_S1x256_S1x256) broadcasts_S1x256_S4x256 (ix2 p c)
      = x4 (ix2 (0 : Fin 1) c) := by
  rw [shapeCast_self]
  exact broadcastTo_apply x4 broadcasts_S1x256_S4x256 (ix2 p c) (ix2 (0 : Fin 1) c) (fun a => match a with
    | ⟨0, _⟩ => by show 0 = if (1 : Nat) = 1 then 0 else p.val; rw [if_pos rfl]
    | ⟨1, _⟩ => by show c.val = if (256 : Nat) = 1 then 0 else c.val; rw [if_neg (by decide)])

/-- The hidden matrix at (p, j). -/
theorem tileHidden_apply (P : FVec Ideal S4x256 .f32) (x1 : Vec Ideal S256x16 .f32) (x2 : Vec Ideal S1x16 .f32)
    (p : Fin 4) (j : Fin 16) :
    tileHidden P x1 x2 (ix2 p j)
      = max ((∑ c' : Fin 256, P (ix2 p c') * x1 (ix2 c' j)) + x2 (ix2 (0 : Fin 1) j)) (Ideal.ofBits .f32 0x00000000#32) := by
  unfold tileHidden
  rw [shapeCast_self]
  show max (matmul dot_S4x256_S256x16_S4x16_1_0_0_1_n_n none P (x1 : FVec Ideal S256x16 .f32) (constant (F := Ideal) S4x16 .f32 0x00000000#32) (ix2 p j)
      + broadcastTo S4x16 (shapeCast S1x16 x2 shapeCasts_S1x16_S1x16) broadcasts_S1x16_S4x16 (ix2 p j)) _ = _
  rw [row16_apply]
  refine congrArg₂ max (congrArg₂ (· + ·) ?_ rfl) rfl
  exact Cert.LibDense.matmul_plain (M := 4) (K := 256) (N := 16) P x1 (ix2 p j)

/-- The gate matrix at (p, c). -/
theorem tileGate_apply (H : FVec Ideal S4x16 .f32) (x3 : Vec Ideal S16x256 .f32) (x4 : Vec Ideal S1x256 .f32)
    (p : Fin 4) (c : Fin 256) :
    tileGate H x3 x4 (ix2 p c)
      = Ideal.logistic ((∑ j : Fin 16, H (ix2 p j) * x3 (ix2 j c)) + x4 (ix2 (0 : Fin 1) c)) := by
  unfold tileGate
  rw [shapeCast_self]
  show Ideal.logistic (matmul dot_S4x16_S16x256_S4x256_1_0_0_1_n_n none H (x3 : FVec Ideal S16x256 .f32) (constant (F := Ideal) S4x256 .f32 0x00000000#32) (ix2 p c)
      + broadcastTo S4x256 (shapeCast S1x256 x4 shapeCasts_S1x256_S1x256) broadcasts_S1x256_S4x256 (ix2 p c)) = _
  rw [row256_apply]
  refine congrArg Ideal.logistic (congrArg₂ (· + ·) ?_ rfl)
  exact Cert.LibDense.matmul_plain (M := 4) (K := 16) (N := 256) H x3 (ix2 p c)

/-- A [4, 256] matrix viewed [4, 256, 1] and broadcast along the last axis reads its (p, c) entry. -/
theorem plane_bcast_apply (g : FVec Ideal S4x256 .f32) (p : Fin 4) (c : Fin 256) (k : Fin 3136) :
    broadcastTo S4x256x3136 (shapeCast S4x256x1 g shapeCasts_S4x256_S4x256x1) broadcasts_S4x256x1_S4x256x3136 (ix3 p c k)
      = g (ix2 p c) := by
  refine (broadcastTo_apply _ broadcasts_S4x256x1_S4x256x3136 (ix3 p c k) (ix3 p c (0 : Fin 1)) (fun a => match a with
    | ⟨0, _⟩ => by show p.val = if (4 : Nat) = 1 then 0 else p.val; rw [if_neg (by decide)]
    | ⟨1, _⟩ => by show c.val = if (256 : Nat) = 1 then 0 else c.val; rw [if_neg (by decide)]
    | ⟨2, _⟩ => by show 0 = if (1 : Nat) = 1 then 0 else k.val; rw [if_pos rfl])).trans ?_
  refine shapeCast_apply g shapeCasts_S4x256_S4x256x1 (ix3 p c (0 : Fin 1)) (ix2 p c) ?_
  rw [Shape.rowMajor_val_two, Shape.rowMajor_val_three]
  show p.val * 256 + c.val = (p.val * 256 + c.val) * 1 + 0
  omega

/-- THE STORED VALUE at (p, c, k): the tile's entry times the gate of image p at channel c, for weights and biases
    that the transposed and row-shaped operands spell. -/
theorem pay_apply (x0 : Vec Ideal S4x256x3136 .f32) (x1 : Vec Ideal S256x16 .f32) (x2 : Vec Ideal S1x16 .f32)
    (x3 : Vec Ideal S16x256 .f32) (x4 : Vec Ideal S1x256 .f32)
    (W1 : (⟨2, ![16, 256]⟩ : Shape).Idx → EReal) (B1 : (⟨1, ![16]⟩ : Shape).Idx → EReal)
    (W2 : (⟨2, ![256, 16]⟩ : Shape).Idx → EReal) (B2 : (⟨1, ![256]⟩ : Shape).Idx → EReal)
    (h1 : ∀ (c' : Fin 256) (j : Fin 16), x1 (ix2 c' j) = W1 (ix2 j c'))
    (h2 : ∀ j : Fin 16, x2 (ix2 (0 : Fin 1) j) = B1 (ix1 j))
    (h3 : ∀ (j : Fin 16) (c : Fin 256), x3 (ix2 j c) = W2 (ix2 c j))
    (h4 : ∀ c : Fin 256, x4 (ix2 (0 : Fin 1) c) = B2 (ix1 c))
    (p : Fin 4) (c : Fin 256) (k : Fin 3136) :
    Gen.k0_pay1 (F := Ideal) x0 x1 x2 x3 x4 (ix3 p c k)
      = x0 (ix3 p c k) * gateRow (fun c' => Ideal.div (∑ k' : Fin 3136, x0 (ix3 p c' k')) (Ideal.ofBits .f32 0x45440000#32))
          W1 B1 W2 B2 c := by
  rw [pay_eq, shapeCast_self]
  show x0 (ix3 p c k) * broadcastTo S4x256x3136 (shapeCast S4x256x1 _ shapeCasts_S4x256_S4x256x1) broadcasts_S4x256x1_S4x256x3136 (ix3 p c k) = _
  rw [plane_bcast_apply, tileGate_apply]
  unfold gateRow
  refine congrArg₂ (· * ·) rfl (congrArg Ideal.logistic (congrArg₂ (· + ·) (Finset.sum_congr rfl fun j _ => ?_) (h4 c)))
  rw [tileHidden_apply, h3 j c, h2 j]
  refine congrArg₂ (· * ·) (congrArg₂ max (congrArg₂ (· + ·) (Finset.sum_congr rfl fun c' _ => ?_) rfl) rfl) rfl
  rw [tilePool_apply, h1 c' j]

end Cert.KernelIdeal.Body

end
-- ==== Proof.KernelGate.lean ====
/-
  The kernel's program, read as a function of its arguments on the extended reals.

  Before the launch the host re-lays the input [64, 256, 56, 56] as [64, 256, 3136] (position k = 56 · h + w of each
  plane), transposes the two weight matrices and views the biases as rows. Grid point t works on images 4t … 4t + 3:
  it fetches that tile of the re-laid input and the whole weights and biases, and writes back the tile times its gate.
  The sixteen tiles cover the sixty-four images, so the re-laid result is the squeeze-and-excitation gate read at
  plane positions; the host then re-lays it back to [64, 256, 56, 56], where it is the gate's result itself.
-/
import proofs.«156877_j37125697306889_2_alg».proof.Proof.Gen.KernelIdeal.Frame
import proofs.«156877_j37125697306889_2_alg».proof.Proof.BodyGate
import Idealize.ShloMosaic.Lib.Pipeline.Value
import Idealize.ShloMosaic.Lib.StableHlo.Run

noncomputable section

namespace Cert.KernelIdeal.Hand

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.SqueezeExcite

variable (m : (ℓ : Loc nD τ sig) → Buf (Elt Ideal) ℓ) (ρ : Dev nD → PrngReg)

/-! ## The arrays the launch finds -/

theorem V_relaid (c : Dev nD) : (V m c main_v0 : S64x256x3136.Idx → EReal)
    = shapeCast S64x256x3136 (m ((c : Thread nD τ).loc main_arg0)) shapeCasts_S64x256x56x56_S64x256x3136 := by
  show StableHlo.after hostOps0 (fun b => m (c, b)) (Proc.devRef .tc main_v0) = _
  after_results <;> rfl

theorem V_w1t (c : Dev nD) : (V m c main_v1 : S256x16.Idx → EReal)
    = transpose S256x16 [1, 0] (m ((c : Thread nD τ).loc main_arg1)) transposes_S16x256_S256x16_1_0 := by
  show StableHlo.after hostOps0 (fun b => m (c, b)) (Proc.devRef .tc main_v1) = _
  after_results <;> rfl

theorem V_w2t (c : Dev nD) : (V m c main_v2 : S16x256.Idx → EReal)
    = transpose S16x256 [1, 0] (m ((c : Thread nD τ).loc main_arg3)) transposes_S256x16_S16x256_1_0 := by
  show StableHlo.after hostOps0 (fun b => m (c, b)) (Proc.devRef .tc main_v2) = _
  after_results <;> rfl

theorem V_b1row (c : Dev nD) : (V m c main_v3 : S1x16.Idx → EReal)
    = shapeCast S1x16 (m ((c : Thread nD τ).loc main_arg2)) shapeCasts_S16_S1x16 := by
  show StableHlo.after hostOps0 (fun b => m (c, b)) (Proc.devRef .tc main_v3) = _
  after_results <;> rfl

theorem V_b2row (c : Dev nD) : (V m c main_v4 : S1x256.Idx → EReal)
    = shapeCast S1x256 (m ((c : Thread nD τ).loc main_arg4)) shapeCasts_S256_S1x256 := by
  show StableHlo.after hostOps0 (fun b => m (c, b)) (Proc.devRef .tc main_v4) = _
  after_results <;> rfl

/-! ## Those arrays at an index -/

/-- The re-laid input at (b, c', k) is the input at plane position k of (b, c'). -/
theorem relaid_apply (c : Dev nD) (b : Fin 64) (c' : Fin 256) (k : Fin 3136) :
    (V m c main_v0 : S64x256x3136.Idx → EReal) (ix3 b c' k) = m ((c : Thread nD τ).loc main_arg0) (planeIdx b c' k) := by
  rw [V_relaid]
  refine shapeCast_apply _ shapeCasts_S64x256x56x56_S64x256x3136 (ix3 b c' k) (planeIdx b c' k) ?_
  rw [Shape.rowMajor_val_four, Shape.rowMajor_val_three]
  show ((b.val * 256 + c'.val) * 56 + k.val / 56) * 56 + k.val % 56 = (b.val * 256 + c'.val) * 3136 + k.val
  omega

theorem w1t_apply (c : Dev nD) (c' : Fin 256) (j : Fin 16) :
    (V m c main_v1 : S256x16.Idx → EReal) (ix2 c' j) = m ((c : Thread nD τ).loc main_arg1) (ix2 j c') := by
  rw [V_w1t]
  exact transpose_apply [1, 0] _ transposes_S16x256_S256x16_1_0 (ix2 c' j) (ix2 j c') (fun b => match b with
    | ⟨0, _⟩ => rfl
    | ⟨1, _⟩ => rfl)

theorem w2t_apply (c : Dev nD) (j : Fin 16) (c' : Fin 256) :
    (V m c main_v2 : S16x256.Idx → EReal) (ix2 j c') = m ((c : Thread nD τ).loc main_arg3) (ix2 c' j) := by
  rw [V_w2t]
  exact transpose_apply [1, 0] _ transposes_S256x16_S16x256_1_0 (ix2 j c') (ix2 c' j) (fun b => match b with
    | ⟨0, _⟩ => rfl
    | ⟨1, _⟩ => rfl)

theorem b1row_apply (c : Dev nD) (j : Fin 16) :
    (V m c main_v3 : S1x16.Idx → EReal) (ix2 (0 : Fin 1) j) = m ((c : Thread nD τ).loc main_arg2) (ix1 j) := by
  rw [V_b1row]
  refine shapeCast_apply _ shapeCasts_S16_S1x16 (ix2 (0 : Fin 1) j) (ix1 j) ?_
  rw [Shape.rowMajor_val_one, Shape.rowMajor_val_two]
  show j.val = 0 * 16 + j.val
  omega

theorem b2row_apply (c : Dev nD) (c' : Fin 256) :
    (V m c main_v4 : S1x256.Idx → EReal) (ix2 (0 : Fin 1) c') = m ((c : Thread nD τ).loc main_arg4) (ix1 c') := by
  rw [V_b2row]
  refine shapeCast_apply _ shapeCasts_S256_S1x256 (ix2 (0 : Fin 1) c') (ix1 c') ?_
  rw [Shape.rowMajor_val_one, Shape.rowMajor_val_two]
  show c'.val = 0 * 256 + c'.val
  omega

/-! ## The blocks of a grid point -/

/-- The printed index maps over the sixteen points: the input and output tiles follow the point along the images,
    every other window stays at its one block. -/
theorem idx_facts : ∀ t : Fin cfg0.N,
    win0_0.index t (0 : Fin 3) = t.val ∧ win0_0.index t (1 : Fin 3) = 0 ∧ win0_0.index t (2 : Fin 3) = 0
    ∧ win0_5.index t (0 : Fin 3) = t.val ∧ win0_5.index t (1 : Fin 3) = 0 ∧ win0_5.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Image p of grid point t's tile is image 4t + p. -/
def tileRow (t : Fin cfg0.N) (p : Fin 4) : Fin 64 :=
  ⟨4 * t.val + p.val, by have := t.isLt; have hN : cfg0.N = 16 := N_0; have := p.isLt; omega⟩

theorem tile_apply (c : Dev nD) (t : Fin cfg0.N) (p : Fin 4) (c' : Fin 256) (k : Fin 3136) :
    (iblk m c 0 t : Vec Ideal S4x256x3136 .f32) (ix3 p c' k)
      = (V m c main_v0 : S64x256x3136.Idx → EReal) (ix3 (tileRow t p) c' k) := by
  obtain ⟨e0, e1, e2, -⟩ := idx_facts t
  unfold iblk
  rw [View.read_apply]
  show V m c main_v0 (((cfg0.win 0).blk t).view.emb (ix3 p c' k)) = V m c main_v0 _
  refine congrArg (V m c main_v0) (funext fun a => Fin.ext ?_)
  match a with
  | ⟨0, _⟩ => show win0_0.index t (0 : Fin 3) * 4 + 1 * p.val = 4 * t.val + p.val; omega
  | ⟨1, _⟩ => show win0_0.index t (1 : Fin 3) * 256 + 1 * c'.val = c'.val; omega
  | ⟨2, _⟩ => show win0_0.index t (2 : Fin 3) * 3136 + 1 * k.val = k.val; omega

theorem w1t_tile (c : Dev nD) (t : Fin cfg0.N) (c' : Fin 256) (j : Fin 16) :
    (iblk m c 1 t : Vec Ideal S256x16 .f32) (ix2 c' j) = (V m c main_v1 : S256x16.Idx → EReal) (ix2 c' j) := by
  obtain ⟨-, -, -, -, -, -, e0, e1, -⟩ := idx_facts t
  unfold iblk
  rw [View.read_apply]
  show V m c main_v1 (((cfg0.win 1).blk t).view.emb (ix2 c' j)) = V m c main_v1 _
  refine congrArg (V m c main_v1) (funext fun a => Fin.ext ?_)
  match a with
  | ⟨0, _⟩ => show win0_1.index t (0 : Fin 2) * 256 + 1 * c'.val = c'.val; omega
  | ⟨1, _⟩ => show win0_1.index t (1 : Fin 2) * 16 + 1 * j.val = j.val; omega

theorem b1row_tile (c : Dev nD) (t : Fin cfg0.N) (j : Fin 16) :
    (iblk m c 2 t : Vec Ideal S1x16 .f32) (ix2 (0 : Fin 1) j) = (V m c main_v3 : S1x16.Idx → EReal) (ix2 (0 : Fin 1) j) := by
  obtain ⟨-, -, -, -, -, -, -, -, e0, e1, -⟩ := idx_facts t
  unfold iblk
  rw [View.read_apply]
  show V m c main_v3 (((cfg0.win 2).blk t).view.emb (ix2 (0 : Fin 1) j)) = V m c main_v3 _
  refine congrArg (V m c main_v3) (funext fun a => Fin.ext ?_)
  match a with
  | ⟨0, _⟩ => show win0_2.index t (0 : Fin 2) * 1 + 1 * 0 = 0; omega
  | ⟨1, _⟩ => show win0_2.index t (1 : Fin 2) * 16 + 1 * j.val = j.val; omega

theorem w2t_tile (c : Dev nD) (t : Fin cfg0.N) (j : Fin 16) (c' : Fin 256) :
    (iblk m c 3 t : Vec Ideal S16x256 .f32) (ix2 j c') = (V m c main_v2 : S16x256.Idx → EReal) (ix2 j c') := by
  obtain ⟨-, -, -, -, -, -, -, -, -, -, e0, e1, -⟩ := idx_facts t
  unfold iblk
  rw [View.read_apply]
  show V m c main_v2 (((cfg0.win 3).blk t).view.emb (ix2 j c')) = V m c main_v2 _
  refine congrArg (V m c main_v2) (funext fun a => Fin.ext ?_)
  match a with
  | ⟨0, _⟩ => show win0_3.index t (0 : Fin 2) * 16 + 1 * j.val = j.val; omega
  | ⟨1, _⟩ => show win0_3.index t (1 : Fin 2) * 256 + 1 * c'.val = c'.val; omega

theorem b2row_tile (c : Dev nD) (t : Fin cfg0.N) (c' : Fin 256) :
    (iblk m c 4 t : Vec Ideal S1x256 .f32) (ix2 (0 : Fin 1) c') = (V m c main_v4 : S1x256.Idx → EReal) (ix2 (0 : Fin 1) c') := by
  obtain ⟨-, -, -, -, -, -, -, -, -, -, -, -, e0, e1⟩ := idx_facts t
  unfold iblk
  rw [View.read_apply]
  show V m c main_v4 (((cfg0.win 4).blk t).view.emb (ix2 (0 : Fin 1) c')) = V m c main_v4 _
  refine congrArg (V m c main_v4) (funext fun a => Fin.ext ?_)
  match a with
  | ⟨0, _⟩ => show win0_4.index t (0 : Fin 2) * 1 + 1 * 0 = 0; omega
  | ⟨1, _⟩ => show win0_4.index t (1 : Fin 2) * 256 + 1 * c'.val = c'.val; omega

/-! ## What a grid point writes back, and the re-laid result array -/

theorem hz3 : (![0, 0, 0] : Fin 3 → Nat) = fun _ => 0 := funext fun a => by fin_cases a <;> rfl
theorem hz2 : (![0, 0] : Fin 2 → Nat) = fun _ => 0 := funext fun a => by fin_cases a <;> rfl

/-- The gate's result read at plane positions: what the region's output array [64, 256, 3136] ends holding. -/
def relaidResult (c : Dev nD) : S64x256x3136.Idx → EReal := fun i =>
  result (m ((c : Thread nD τ).loc main_arg0)) (m ((c : Thread nD τ).loc main_arg1)) (m ((c : Thread nD τ).loc main_arg2))
    (m ((c : Thread nD τ).loc main_arg3)) (m ((c : Thread nD τ).loc main_arg4)) (planeIdx (i 0) (i 1) (i 2))

/-- Grid point t writes back tile t of the re-laid result. -/
theorem flushed_eq (c : Dev nD) (t : Fin cfg0.N) :
    (dats m 0 c).flushed 5 t = ((cfg0.win 5).blk t).view.read (Elt Ideal) (relaidResult m c) := by
  show (cfg0.win 5).cut (grid0.coords t) ((dats m 0 c).after 5 t) = _
  rw [after0_5]
  unfold out0_5
  rw [View.canon_unit_zero hz3]
  simp only [View.ld_unit_zero (S := S4x256x3136) hz3, View.ld_unit_zero (S := S256x16) hz2,
    View.ld_unit_zero (S := S1x16) hz2, View.ld_unit_zero (S := S16x256) hz2, View.ld_unit_zero (S := S1x256) hz2]
  refine funext fun (y : S4x256x3136.Idx) => ?_
  obtain ⟨p, c', k, rfl⟩ : ∃ (p : Fin 4) (c' : Fin 256) (k : Fin 3136), y = ix3 p c' k := ⟨y 0, y 1, y 2, eq_ix3 y⟩
  show k0_pay1 (F := Ideal) (iblk m c 0 t) (iblk m c 1 t) (iblk m c 2 t) (iblk m c 3 t) (iblk m c 4 t) (ix3 p c' k)
    = relaidResult m c (((cfg0.win 5).blk t).view.emb (ix3 p c' k))
  obtain ⟨-, -, -, e0, e1, e2, -⟩ := idx_facts t
  have hemb : ((cfg0.win 5).blk t).view.emb (ix3 p c' k) = ix3 (tileRow t p) c' k := funext fun a => Fin.ext (by
    match a with
    | ⟨0, _⟩ => show win0_5.index t (0 : Fin 3) * 4 + 1 * p.val = 4 * t.val + p.val; omega
    | ⟨1, _⟩ => show win0_5.index t (1 : Fin 3) * 256 + 1 * c'.val = c'.val; omega
    | ⟨2, _⟩ => show win0_5.index t (2 : Fin 3) * 3136 + 1 * k.val = k.val; omega)
  rw [hemb]
  refine (Body.pay_apply (iblk m c 0 t) (iblk m c 1 t) (iblk m c 2 t) (iblk m c 3 t) (iblk m c 4 t)
    (m ((c : Thread nD τ).loc main_arg1)) (m ((c : Thread nD τ).loc main_arg2)) (m ((c : Thread nD τ).loc main_arg3))
    (m ((c : Thread nD τ).loc main_arg4))
    (fun c'' j => (w1t_tile m c t c'' j).trans (w1t_apply m c c'' j))
    (fun j => (b1row_tile m c t j).trans (b1row_apply m c j))
    (fun j c'' => (w2t_tile m c t j c'').trans (w2t_apply m c j c''))
    (fun c'' => (b2row_tile m c t c'').trans (b2row_apply m c c'')) p c' k).trans ?_
  unfold relaidResult result
  refine congrArg₂ (· * ·) ((tile_apply m c t p c' k).trans (relaid_apply m c (tileRow t p) c' k))
    (congrArg (fun P => gateRow P _ _ _ _ c') (funext fun c'' => ?_))
  unfold pooled
  exact congrArg₂ Ideal.div
    (Finset.sum_congr rfl fun k' _ => (tile_apply m c t p c'' k').trans (relaid_apply m c (tileRow t p) c'' k')) rfl

/-- An index of the array is in point t's tile iff each coordinate is in the tile's range on its axis. -/
theorem mem_tile (t : Fin cfg0.N) (i : S64x256x3136.Idx) :
    i ∈ ((cfg0.win 5).blk t).view.set ↔ ∀ a : Fin 3, win0_5.index t a * S4x256x3136.size a ≤ (i a).val
      ∧ (i a).val < win0_5.index t a * S4x256x3136.size a + S4x256x3136.size a := by
  show i ∈ ((View.whole main_v5).slice (win0_5.rect t)).set ↔ _
  rw [View.set_slice_whole, Rect.mem_set_unit]
  exact Iff.rfl

/-- Image b lies in the tile of point b / 4: the sixteen tiles cover the array. -/
theorem cover (i : S64x256x3136.Idx) :
    ∃ t : Fin cfg0.N, (cfg0.win 5).flush t = true ∧ i ∈ ((cfg0.win 5).blk t).view.set := by
  have h0 : (i 0).val < 64 := (i 0).isLt
  have h1 : (i 1).val < 256 := (i 1).isLt
  have h2 : (i 2).val < 3136 := (i 2).isLt
  have hN : cfg0.N = 16 := N_0
  obtain ⟨t, ht⟩ : ∃ t : Fin cfg0.N, t.val = (i 0).val / 4 := ⟨⟨(i 0).val / 4, by omega⟩, rfl⟩
  obtain ⟨-, -, -, e0, e1, e2, -⟩ := idx_facts t
  refine ⟨t, flush0_5 t, ?_⟩
  rw [mem_tile]
  intro a
  match a with
  | ⟨0, _⟩ => show win0_5.index t (0 : Fin 3) * 4 ≤ (i 0).val ∧ (i 0).val < win0_5.index t (0 : Fin 3) * 4 + 4; omega
  | ⟨1, _⟩ => show win0_5.index t (1 : Fin 3) * 256 ≤ (i 1).val ∧ (i 1).val < win0_5.index t (1 : Fin 3) * 256 + 256; omega
  | ⟨2, _⟩ => show win0_5.index t (2 : Fin 3) * 3136 ≤ (i 2).val ∧ (i 2).val < win0_5.index t (2 : Fin 3) * 3136 + 3136; omega

/-- The region's output array after the last point. -/
theorem relaid_final (c : Dev nD) : (dats m 0 c).arrAt 5 cfg0.N = relaidResult m c :=
  (dats m 0 c).arrAt_eq_of_cover 5 (relaidResult m c) (fun t _ => flushed_eq m c t) cover

/-! ## The host's re-laying back, and the run -/

/-- After the launch the host re-lays the region's array back to [64, 256, 56, 56]: the gate's result. -/
theorem tail_eq (c : Dev nD) :
    (Pipeline.afterTail₀ cfgs (dats m) 0 (V0 m) [hostOps1] c main_v6 : S64x256x56x56.Idx → EReal)
      = result (m ((c : Thread nD τ).loc main_arg0)) (m ((c : Thread nD τ).loc main_arg1)) (m ((c : Thread nD τ).loc main_arg2))
          (m ((c : Thread nD τ).loc main_arg3)) (m ((c : Thread nD τ).loc main_arg4)) := by
  have hw : Pipeline.withArrays (cfgs 0).spec c (V0 m c) (fun w => (dats m 0 c).arrAt w (cfgs 0).N) (Proc.devRef .tc main_v5)
      = relaidResult m c :=
    (Pipeline.withArrays_arr spec0 launch0.win.arr_inj c _ _ 5).trans (relaid_final m c)
  unfold Pipeline.afterTail₀
  show StableHlo.after hostOps1 _ (Proc.devRef .tc main_v6) = _
  after_results
  refine funext fun i => ?_
  obtain ⟨b, c', h, w, rfl⟩ : ∃ (b : Fin 64) (c' : Fin 256) (h w : Fin 56), i = ix4 b c' h w := ⟨i 0, i 1, i 2, i 3, eq_ix4 i⟩
  show shapeCast S64x256x56x56 (Pipeline.withArrays (cfgs 0).spec c (V0 m c) (fun w => (dats m 0 c).arrAt w (cfgs 0).N)
      (Proc.devRef .tc main_v5)) shapeCasts_S64x256x3136_S64x256x56x56 (ix4 b c' h w) = _
  rw [hw]
  have hh := h.isLt; have hw' := w.isLt
  refine (shapeCast_apply (relaidResult m c) shapeCasts_S64x256x3136_S64x256x56x56 (ix4 b c' h w)
    (ix3 b c' (⟨h.val * 56 + w.val, by omega⟩ : Fin 3136)) ?_).trans ?_
  · rw [Shape.rowMajor_val_three, Shape.rowMajor_val_four]
    show (b.val * 256 + c'.val) * 3136 + (h.val * 56 + w.val) = ((b.val * 256 + c'.val) * 56 + h.val) * 56 + w.val
    omega
  · unfold relaidResult
    show result _ _ _ _ _ (planeIdx b c' (⟨h.val * 56 + w.val, _⟩ : Fin 3136)) = _
    rw [planeIdx_pos]

/-- THE KERNEL'S RUN, READ: every weakly fair execution ends with the result array at the squeeze-and-excitation gate
    of the arguments and the arguments unchanged. -/
theorem run : θ_run defs (onTc (τ := τ) (main (F := Ideal))) ⟨m, fun _ => 0, ρ⟩ (fun r => ∀ c : Dev nD,
      r.2.mem ((c.tc : Thread nD τ).loc main_v6)
        = result (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
      ⟨((h c).2 main_v6 (Pipeline.mem_restRefs_of main_v6 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Hand

end
-- ==== Proof.lean ====
/-
  The certificate of a fused squeeze-and-excitation kernel against its jnp reference, on the extended reals.

  Both programs compute, for an input X : [64, 256, 56, 56], weights W1 : [16, 256], W2 : [256, 16] and biases
  B1 : [16], B2 : [256],
      result (b, c, h, w) = X (b, c, h, w) · logistic (max (pooled_b · W1ᵀ + B1, 0) · W2ᵀ + B2) (c),
      pooled_b (c) = (Σ over the 56 · 56 positions of X (b, c, ·, ·)) / 3136
  (Proof/SqueezeExcite.lean). The reference sums each plane over its two axes; the kernel re-lays each plane as one
  axis of length 3136, sums along it tile by tile of four images, and re-lays the product back. A finite sum on the
  extended reals does not depend on the order or grouping of its terms, both programs divide by the same word of
  3136, the kernel's two matrix products accumulate into zero, and the kernel's logistic operation is the reference's
  1 / (1 + exp (-x)); so the two results are one function of the arguments, index by index, and no finiteness of the
  inputs is used. The three frames are the generated frame runs (the reference's its generated run with the result
  dropped), and the idealization rewrote nothing.
-/
import proofs.«156877_j37125697306889_2_alg».proof.Defs
import proofs.«156877_j37125697306889_2_alg».proof.Proof.Gen.Kernel
import proofs.«156877_j37125697306889_2_alg».proof.Proof.Gen.Kernel.Frame
import proofs.«156877_j37125697306889_2_alg».proof.Proof.Gen.KernelIdeal
import proofs.«156877_j37125697306889_2_alg».proof.Proof.Gen.KernelIdeal.Frame
import proofs.«156877_j37125697306889_2_alg».proof.Proof.Gen.ReferenceIdeal
import proofs.«156877_j37125697306889_2_alg».proof.Proof.Gen.ReferenceIdeal.Run
import proofs.«156877_j37125697306889_2_alg».proof.Proof.Gen.ReferenceIdeal.Read
import proofs.«156877_j37125697306889_2_alg».proof.Proof.Gen.Pre_finite_inputs
import proofs.«156877_j37125697306889_2_alg».proof.Proof.RefGate
import proofs.«156877_j37125697306889_2_alg».proof.Proof.KernelGate
import Idealize.ShloMosaic.Adequacy
import Idealize.ShloMosaic.Init

noncomputable section

namespace Cert.Proof

open Idealize.ShloMosaic Idealize.SL.Sem

/-- The word-level kernel runs, faults nowhere and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories that agree on the five arguments the kernel's result array and the reference's are both the
    squeeze-and-excitation gate of those arguments. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefValue.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
